-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144x64 : Shape := ⟨2, ![262144, 64]⟩
abbrev S64x128 : Shape := ⟨2, ![64, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S262144x64 : S_.BroadcastsInDim S262144x64 (![] : Fin 0 → Fin S262144x64.rank)
  reducesTo_S262144x64_S_d0_1 : S262144x64.ReducesTo [0, 1] S_
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S262144x128 .f32) (main_arg1 : FVec F S262144x64 .f32) (main_arg2 : FVec F S64x128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x64 .f32 := Host.absf main_arg1
  let main_cst_0 : FVec F S_ .f32 := constant S_ .f32 0x7F800000#32
  let main_v5 : FVec F S262144x64 .f32 := broadcastInDim S262144x64 ![] bcast_S_S262144x64 main_cst_0
  let main_v6 : IVec S262144x64 1 := cmpf .olt main_v4 main_v5
  let main_c_1 : IVec S_ 1 := constantI S_ 1 1#1
  let main_v7 : IVec S_ 1 := (fun x v => Host.reduce IntOp.andi x v reducesTo_S262144x64_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  main_v13
-- ==== Kernel.lean ====
abbrev S262144x128 : Shape := ⟨2, ![262144, 128]⟩
abbrev S262144x64 : Shape := ⟨2, ![262144, 64]⟩
abbrev S64x128 : Shape := ⟨2, ![64, 128]⟩
abbrev S16x128 : Shape := ⟨2, ![16, 128]⟩
abbrev S2048x128 : Shape := ⟨2, ![2048, 128]⟩
abbrev S2048x64 : Shape := ⟨2, ![2048, 64]⟩
abbrev S8x128 : Shape := ⟨2, ![8, 128]⟩
abbrev S2048 : Shape := ⟨1, ![2048]⟩
abbrev S2048x1 : Shape := ⟨2, ![2048, 1]⟩
abbrev S64 : Shape := ⟨1, ![64]⟩
abbrev S128x64 : Shape := ⟨2, ![128, 64]⟩
abbrev S1x64 : Shape := ⟨2, ![1, 64]⟩
abbrev S1 : Shape := ⟨1, ![1]⟩
abbrev S1x1 : Shape := ⟨2, ![1, 1]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S262144x128, .f32⟩
  | .hbm, ⟨1, _⟩ => ⟨S262144x64, .f32⟩
  | .hbm, ⟨2, _⟩ => ⟨S64x128, .f32⟩
  | .hbm, ⟨3, _⟩ => ⟨S16x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x64, .f32⟩
  | .local _ .vmem, ⟨3, _⟩ => ⟨S2048x64, .f32⟩
  | .local _ .vmem, ⟨4, _⟩ => ⟨S64x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v43 : BitVec 1 := Scalar.cmpi .eq arg1 c63_i32
  let v44 : BitVec 32 := Scalar.extui v43
  let c0_i32_18 : BitVec 32 := 0#32
  let v45 : BitVec 1 := Scalar.cmpi .ne v44 c0_i32_18
  v45

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S2048x128_S2048x128_0_0 : ∀ a, (![0, 0] : Fin 2 → Nat) a + S2048x128.size a ≤ S2048x128.size a
  h_S2048x128 : 0 < S2048x128.numel
  inb_S2048x64_S2048x64_0_0 : ∀ a, (![0, 0] : Fin 2 → Nat) a + S2048x64.size a ≤ S2048x64.size a
  h_S2048x64 : 0 < S2048x64.numel
  inb_S64x128_S64x128_0_0 : ∀ a, (![0, 0] : Fin 2 → Nat) a + S64x128.size a ≤ S64x128.size a
  h_S64x128 : 0 < S64x128.numel
  reduces_S2048x128_S2048 : S2048x128.Reduces [1] S2048
  shapeCasts_S2048_S2048x1 : S2048.ShapeCasts S2048x1
  reduces_S64x128_S64 : S64x128.Reduces [1] S64
  bitsLt_bf16_f32 : FTy.bits .bf16 < FTy.bits .f32
  transposes_S64x128_p1_0_S128x64 : S64x128.Transposes [1, 0] S128x64
  shapeCasts_S64_S1x64 : S64.ShapeCasts S1x64
  broadcasts_S2048x1_S2048x64 : S2048x1.Broadcasts S2048x64
  broadcasts_S1x64_S2048x64 : S1x64.Broadcasts S2048x64
  reduces_S2048x64_S2048 : S2048x64.Reduces [1] S2048
  reduces_S2048x1_S1 : S2048x1.Reduces [0] S1
  shapeCasts_S1_S1x1 : S1.ShapeCasts S1x1
  inpos_S1x1_p0_0 : ∀ a, (![0, 0] : Fin 2 → Nat) a < S1x1.size a
  iota_S8x128_d0_w32 : S8x128.Iotas .tc 32 [0]
  iota_S8x128_d1_w32 : S8x128.Iotas .tc 32 [1]
  reducesTo_S16x128_S_d0_1 : S16x128.ReducesTo [0, 1] S_
  h_S_ : 0 < S_.numel
  dot_S2048x128_S128x64_S2048x64_1_0_0_1_n_n_wf : DotDims.WF S2048x128 S128x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S262144x64.size a
  hwx0_1 : ∀ i : grid0.Coords, EltTy.bits .f32 = 32 ∨ (Rect.block (s := S262144x64) S2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S262144x128 : Shape := ⟨2, ![262144, 128]⟩
abbrev S262144x64 : Shape := ⟨2, ![262144, 64]⟩
abbrev S64x128 : Shape := ⟨2, ![64, 128]⟩
abbrev S_ : Shape := ⟨0, ![]⟩
abbrev S262144 : Shape := ⟨1, ![262144]⟩
abbrev S262144x1 : Shape := ⟨2, ![262144, 1]⟩
abbrev S64 : Shape := ⟨1, ![64]⟩
abbrev S1x64 : Shape := ⟨2, ![1, 64]⟩

abbrev nBuf : Space → Nat
  | .hbm => 24
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x64, .f32⟩
  | .hbm, ⟨2, _⟩ => ⟨S64x128, .f32⟩
  | .hbm, ⟨3, _⟩ => ⟨S262144x128, .f32⟩
  | .hbm, ⟨4, _⟩ => ⟨S_, .f32⟩
  | .hbm, ⟨5, _⟩ => ⟨S262144, .f32⟩
  | .hbm, ⟨6, _⟩ => ⟨S262144x1, .f32⟩
  | .hbm, ⟨7, _⟩ => ⟨S64x128, .f32⟩
  | .hbm, ⟨8, _⟩ => ⟨S_, .f32⟩
  | .hbm, ⟨9, _⟩ => ⟨S64, .f32⟩
  | .hbm, ⟨10, _⟩ => ⟨S262144x64, .f32⟩
  | .hbm, ⟨11, _⟩ => ⟨S1x64, .f32⟩
  | .hbm, ⟨12, _⟩ => ⟨S262144x64, .f32⟩
  | .hbm, ⟨13, _⟩ => ⟨S262144x64, .f32⟩
  | .hbm, ⟨14, _⟩ => ⟨S262144x64, .f32⟩
  | .hbm, ⟨15, _⟩ => ⟨S_, .f32⟩
  | .hbm, ⟨16, _⟩ => ⟨S262144x64, .f32⟩
  | .hbm, ⟨17, _⟩ => ⟨S262144x64, .f32⟩
  | .hbm, ⟨18, _⟩ => ⟨S262144x64, .f32⟩
  | .hbm, ⟨19, _⟩ => ⟨S262144x64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  reducesTo_S262144x128_S262144_d1 : S262144x128.ReducesTo [1] S262144
  h_S_ : 0 < S_.numel
  bcast_S262144_S262144x1_0 : S262144.BroadcastsInDim S262144x1 (![0] : Fin 1 → Fin S262144x1.rank)
  reducesTo_S64x128_S64_d1 : S64x128.ReducesTo [1] S64
  bcast_S64_S1x64_1 : S64.BroadcastsInDim S1x64 (![1] : Fin 1 → Fin S1x64.rank)
  bcast_S262144x1_S262144x64_0_1 : S262144x1.BroadcastsInDim S262144x64 (![0, 1] : Fin 2 → Fin S262144x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  reducesTo_S262144x64_S_d0_1 : S262144x64.ReducesTo [0, 1] S_
  dot_S262144x128_S64x128_S262144x64_1_1_0_0_n_n_wf : DotDims.WF S262144x128 S64x128 S262144x64 [1] [1] [0] [0] [] []

variable [Facts₀]

def dot_S262144x128_S64x128_S262144x64_1_1_0_0_n_n : DotDims S262144x128 S64x128 S262144x64 where
  lhsContracting := [1]
  rhsContracting := [1]
  lhsNonContracting := [0]
  rhsNonContracting := [0]
  lhsBatch := []
  rhsBatch := []
  wf := dot_S262144x128_S64x128_S262144x64_1_1_0_0_n_n_wf

class Facts : Prop extends Facts₀ where

variable [Facts]
-- ==== Proof.Pieces.lean ====
/-
  What the kernel body leaves behind at one grid point, as values.

  The body keeps a running total in an 8×128 scratch block that it carries from point to point. At a core's first
  point it first stores the zero block there; at every point it then adds the point's masked block sum to the
  scratch; at a core's last point it also copies the scratch into the output block. Each lemma below reads the
  stores the body's run left in a buffer back as one pure term of the blocks the body loaded:
    first point of a core:   scratch = zero block + masked sum of this point,
    middle point:            scratch = carried scratch + masked sum of this point,
    last point of a core:    scratch = output block = carried scratch + masked sum of this point.
  They hold for every float instance: nothing is computed here, the covering store's payload is read through
  whole buffers at offset zero.
-/
import proofs.«125891_j1236950581441_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First point of a core: the scratch ends at the zero block plus this point's masked block sum. -/
theorem sout_A (c : Dev nD) (i : grid0.Coords) (arg2 : Memref sig .tc .vmem S2048x128 .f32) (harg2 : arg2.IsWhole) (arg3 : Memref sig .tc .vmem S2048x64 .f32) (harg3 : arg3.IsWhole) (arg4 : Memref sig .tc .vmem S64x128 .f32) (harg4 : arg4.IsWhole) (arg5 : Memref sig .tc .vmem S8x128 .f32) (harg5 : arg5.IsWhole) (arg6 : Memref sig .tc .vmem S8x128 .f32) (harg6 : arg6.IsWhole) (hc0 : cond0_0 i) (hc1 : ¬cond0_1 i)
    (x0 : Vec F S2048x128 .f32) (x1 : Vec F S2048x64 .f32) (x2 : Vec F S64x128 .f32) :
    sout0_A_0 c i arg2 harg2 arg3 harg3 arg4 harg4 arg5 harg5 arg6 harg6 hc0 hc1 x0 x1 x2 = k0_pay1 (k0_pay3 x0 x1 x2) (k0_pay2 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S8x128) hz, View.readCov_unit_zero (S := S8x128) _ hz]
  simp only [View.readAt_eq_ld, harg2.read_unread, harg3.read_unread, harg4.read_unread, harg6.read_unread, View.ld_unit_zero (S := S8x128) hz, View.ld_unit_zero (S := S2048x128) hz, View.ld_unit_zero (S := S2048x64) hz, View.ld_unit_zero (S := S64x128) hz]

/-- A middle point: the scratch ends at what the point before left plus this point's masked block sum. -/
theorem sout_B (c : Dev nD) (i : grid0.Coords) (arg2 : Memref sig .tc .vmem S2048x128 .f32) (harg2 : arg2.IsWhole) (arg3 : Memref sig .tc .vmem S2048x64 .f32) (harg3 : arg3.IsWhole) (arg4 : Memref sig .tc .vmem S64x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : ¬cond0_1 i)
    (x0 : Vec F S2048x128 .f32) (x1 : Vec F S2048x64 .f32) (x2 : Vec F S64x128 .f32) (xs0 : Vec F S8x128 .f32) :
    sout0_B_0 c i arg2 harg2 arg3 harg3 arg4 harg4 arg5 harg5 arg6 harg6 hc0 hc1 x0 x1 x2 xs0 = k0_pay1 (k0_pay3 x0 x1 x2) xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg4.read_unread, harg6.read_unread, View.ld_unit_zero (S := S8x128) hz, View.ld_unit_zero (S := S2048x128) hz, View.ld_unit_zero (S := S2048x64) hz, View.ld_unit_zero (S := S64x128) hz]

/-- Last point of a core: the scratch ends at what the point before left plus this point's masked block sum, -/
theorem sout_C (c : Dev nD) (i : grid0.Coords) (arg2 : Memref sig .tc .vmem S2048x128 .f32) (harg2 : arg2.IsWhole) (arg3 : Memref sig .tc .vmem S2048x64 .f32) (harg3 : arg3.IsWhole) (arg4 : Memref sig .tc .vmem S64x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i)
    (x0 : Vec F S2048x128 .f32) (x1 : Vec F S2048x64 .f32) (x2 : Vec F S64x128 .f32) (xs0 : Vec F S8x128 .f32) :
    sout0_C_0 c i arg2 harg2 arg3 harg3 arg4 harg4 arg5 harg5 arg6 harg6 hc0 hc1 x0 x1 x2 xs0 = k0_pay1 (k0_pay3 x0 x1 x2) xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread, View.ld_unit_zero (S := S8x128) hz, View.ld_unit_zero (S := S2048x128) hz, View.ld_unit_zero (S := S2048x64) hz, View.ld_unit_zero (S := S64x128) hz]

/-- and the output block is that same total: the body copies the scratch into it. -/
theorem out_C (c : Dev nD) (i : grid0.Coords) (arg2 : Memref sig .tc .vmem S2048x128 .f32) (harg2 : arg2.IsWhole) (arg3 : Memref sig .tc .vmem S2048x64 .f32) (harg3 : arg3.IsWhole) (arg4 : Memref sig .tc .vmem S64x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i)
    (x0 : Vec F S2048x128 .f32) (x1 : Vec F S2048x64 .f32) (x2 : Vec F S64x128 .f32) (xs0 : Vec F S8x128 .f32) :
    out0_C_3 c i arg2 harg2 arg3 harg3 arg4 harg4 arg5 harg5 arg6 harg6 hc0 hc1 x0 x1 x2 xs0 = k0_pay1 (k0_pay3 x0 x1 x2) xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz, View.readCov_unit_zero (S := S8x128) _ hz]
  simp only [View.readAt_eq_ld, harg2.read_unread, harg3.read_unread, harg4.read_unread, harg6.read_unread, View.ld_unit_zero (S := S8x128) hz, View.ld_unit_zero (S := S2048x128) hz, View.ld_unit_zero (S := S2048x64) hz, View.ld_unit_zero (S := S64x128) hz]

end Cert.KernelIdeal.Pieces

end
-- ==== Proof.Spec.lean ====
/-
  The isotropic mixture loss as one function of the three argument arrays, on the extended reals.

  For rows x_n (n < 262144, 128 coordinates), centres μ_k (k < 64) and responsibilities r[n,k] the loss is
      ( ∑_n ∑_k r[n,k] · ( ‖x_n‖² + ‖μ_k‖² − 2·⟨x_n, μ_k⟩ ) ) / 262144,
  the squared distance written expanded, as both programs compute it. Arrays are functions of their coordinates; the two
  float literals are kept as the binary32 words both programs spell (2.0 and 262144.0), never evaluated.
  The sum over all rows is a sum over 128 blocks of 2048 consecutive rows (blockSum_split), which is how the
  kernel walks the rows: only commutativity and associativity of + are used, so nothing here asks for finiteness.
-/
import Idealize.ShloMosaic.PureOps.Ideal
import Idealize.ShloMosaic.PureOps.Ideal.Laws
import Idealize.ShloMosaic.Lib.ValueIdx

noncomputable section

open scoped BigOperators

namespace Cert.Spec

open Idealize.ShloMosaic

/-- The factor two, as both programs spell it: the binary32 word of 2.0. -/
abbrev two : EReal := Ideal.ofBits .f32 0x40000000#32

/-- The row count as both programs spell it: the binary32 word of 262144.0. -/
abbrev rows : EReal := Ideal.ofBits .f32 0x48800000#32

/-- ‖x − μ‖² expanded: ‖x‖² + ‖μ‖² − 2·⟨x, μ⟩, over 128 coordinates. -/
def dist2 (x mu : Fin 128 → EReal) : EReal :=
  ((∑ d : Fin 128, x d * x d) + ∑ d : Fin 128, mu d * mu d) - two * ∑ d : Fin 128, x d * mu d

/-- The weighted squared distances of a block of `n` rows to the 64 centres, summed over the block. -/
def blockSum {n : ℕ} (X : Fin n → Fin 128 → EReal) (R : Fin n → Fin 64 → EReal) (M : Fin 64 → Fin 128 → EReal) : EReal :=
  ∑ r : Fin n, ∑ k : Fin 64, R r k * dist2 (X r) (M k)

/-- Row `r` of the `t`-th block of 2048 consecutive rows. -/
def row (t : Fin 128) (r : Fin 2048) : Fin 262144 := ⟨2048 * t.val + r.val, by omega⟩

/-- The loss: the sum over every row, divided by the number of rows. -/
def loss (X : Fin 262144 → Fin 128 → EReal) (R : Fin 262144 → Fin 64 → EReal) (M : Fin 64 → Fin 128 → EReal) : EReal :=
  Ideal.div (blockSum X R M) rows

/-- The running total on one core after grid point `n` (64 points per core, point `n` on core `n / 64`): the block
    sums `P` of that core's points up to and including `n`. -/
def runSum (P : ℕ → EReal) (n : ℕ) : EReal := ∑ s ∈ Finset.range (n % 64 + 1), P (n / 64 * 64 + s)

/-- An 8×128 block holding `v` at position (0, 0) and zero elsewhere: the shape of the kernel's accumulator. -/
def corner (v : EReal) : (⟨2, ![8, 128]⟩ : Shape).Idx → EReal :=
  fun y => if (y 0).val = 0 ∧ (y 1).val = 0 then v else 0

/-- The 16×128 array of per-core totals: core `c`'s total `A c` at position (8c, 0), zero elsewhere. -/
def slab (A : ℕ → EReal) : (⟨2, ![16, 128]⟩ : Shape).Idx → EReal :=
  fun i => if (i 0).val % 8 = 0 ∧ (i 1).val = 0 then A ((i 0).val / 8) else 0

end Cert.Spec

end
-- ==== Proof.SumAlgebra.lean ====
/-
  Finite sums on the extended reals, re-indexed.

  The extended reals are a commutative additive monoid, so a finite sum may be regrouped and re-indexed freely; only
  commutativity and associativity of + and 0 + x = x are used below, hence nothing asks for finiteness of a term.
  Three groups of facts: the sum over 262144 rows is the sum over 128 blocks of 2048 consecutive rows; the running
  total of one core over its 64 grid points starts with its first block sum, grows by one block sum per point, and
  the two cores' final totals add up to the sum over all 128 points; an 8×128 block carrying a value in its (0, 0)
  entry adds entry by entry, and the 16×128 array of the two cores' totals sums to their sum.
-/
import proofs.«125891_j1236950581441_1_alg».proof.Proof.Spec

noncomputable section

open scoped BigOperators

namespace Cert.SumAlgebra

open Idealize.ShloMosaic Idealize.ShloMosaic.ValueIdx Cert.Spec

/-- a core's first point starts its running total -/
theorem runSum_start (P : ℕ → EReal) (n : ℕ) (h : n % 64 = 0) : runSum P n = P n := by
  unfold runSum
  have h3 : n / 64 * 64 + 0 = n := by omega
  rw [h, Nat.zero_add, Finset.sum_range_one, h3]

/-- every later point adds its block sum -/
theorem runSum_step (P : ℕ → EReal) (n : ℕ) (h : ¬ n % 64 = 0) : runSum P n = runSum P (n - 1) + P n := by
  unfold runSum
  have h1 : (n - 1) / 64 = n / 64 := by omega
  have h2 : (n - 1) % 64 + 1 = n % 64 := by omega
  have h3 : n / 64 * 64 + n % 64 = n := by omega
  rw [h1, h2, Finset.sum_range_succ, h3]

/-- accumulating into the corner block, entry by entry -/
theorem corner_add (a b : EReal) (y : (⟨2, ![8, 128]⟩ : Shape).Idx) : corner a y + corner b y = corner (a + b) y := by
  unfold corner
  by_cases hc : (y 0).val = 0 ∧ (y 1).val = 0
  · rw [if_pos hc, if_pos hc, if_pos hc]
  · rw [if_neg hc, if_neg hc, if_neg hc, add_zero]

theorem zero_add_corner (a : EReal) (y : (⟨2, ![8, 128]⟩ : Shape).Idx) : (0 : EReal) + corner a y = corner a y :=
  zero_add _

/-- a block of the slab read back: rows 8c … 8c+7 of the slab are the corner block of core c's total (c < 2) -/
theorem slab_block (A : ℕ → EReal) (c : ℕ) (y : (⟨2, ![8, 128]⟩ : Shape).Idx) (i : (⟨2, ![16, 128]⟩ : Shape).Idx)
    (h0 : (i 0).val = c * 8 + 1 * (y 0).val) (h1 : (i 1).val = 0 * 128 + 1 * (y 1).val) : slab A i = corner (A c) y := by
  have hy0 : (y 0).val < 8 := idx2_lt0 y
  have hy1 : (y 1).val < 128 := idx2_lt1 y
  unfold slab corner
  by_cases hc : (y 0).val = 0 ∧ (y 1).val = 0
  · have hi : (i 0).val % 8 = 0 ∧ (i 1).val = 0 := by omega
    have hd : (i 0).val / 8 = c := by omega
    rw [if_pos hi, if_pos hc, hd]
  · have hi : ¬ ((i 0).val % 8 = 0 ∧ (i 1).val = 0) := by omega
    rw [if_neg hi, if_neg hc]

/-- the two cores' final totals are the sum over all 128 points -/
theorem runSum_total (P : ℕ → EReal) : runSum P 63 + runSum P 127 = ∑ t : Fin 128, P t.val := by
  have e1 : runSum P 63 = ∑ s ∈ Finset.range 64, P s := by
    show ∑ s ∈ Finset.range 64, P (0 + s) = _
    simp only [Nat.zero_add]
  have e2 : runSum P 127 = ∑ s ∈ Finset.range 64, P (64 + s) := rfl
  rw [e1, e2, Fin.sum_univ_eq_sum_range (fun s => P s) 128]
  exact (Finset.sum_range_add (fun s => P s) 64 64).symm

/-- the host's total of the 16×128 array of per-core totals -/
theorem sum_slab (A : ℕ → EReal) : ∑ i : (⟨2, ![16, 128]⟩ : Shape).Idx, slab A i = A 0 + A 1 := by
  rw [sum_idx2]
  -- the inner sum over the 128 columns keeps column 0 only
  have inner : ∀ a : Fin 16, ∑ b : Fin 128, slab A (ix2 a b) = if a.val % 8 = 0 then A (a.val / 8) else 0 := by
    intro a
    rw [Finset.sum_eq_single (0 : Fin 128)]
    · show (if a.val % 8 = 0 ∧ (0 : Fin 128).val = 0 then A (a.val / 8) else 0) = _
      by_cases ha : a.val % 8 = 0
      · rw [if_pos ⟨ha, rfl⟩, if_pos ha]
      · rw [if_neg (fun h => ha h.1), if_neg ha]
    · intro b _ hb
      show (if a.val % 8 = 0 ∧ b.val = 0 then A (a.val / 8) else 0) = 0
      have hb' : ¬ b.val = 0 := fun h => hb (Fin.ext h)
      rw [if_neg (fun h => hb' h.2)]
    · intro h; exact absurd (Finset.mem_univ _) h
  rw [Finset.sum_congr rfl (fun a _ => inner a)]
  -- the outer sum over the 16 rows keeps rows 0 and 8
  rw [Finset.sum_eq_add (0 : Fin 16) (8 : Fin 16)]
  · rfl
  · decide
  · intro c _ hc
    have h0 : ¬ c.val = 0 := fun h => hc.1 (Fin.ext h)
    have h8 : ¬ c.val = 8 := fun h => hc.2 (Fin.ext h)
    have hlt : c.val < 16 := c.isLt
    rw [if_neg (by omega)]
  · intro h; exact absurd (Finset.mem_univ _) h
  · intro h; exact absurd (Finset.mem_univ _) h

/-- all rows at once = 128 blocks of 2048 consecutive rows -/
theorem blockSum_split (X : Fin 262144 → Fin 128 → EReal) (R : Fin 262144 → Fin 64 → EReal) (M : Fin 64 → Fin 128 → EReal) :
    blockSum X R M = ∑ t : Fin 128, blockSum (fun r => X (row t r)) (fun r => R (row t r)) M := by
  unfold blockSum
  -- (t, r) ↦ 2048·t + r is a bijection from pairs (block, row in the block) onto the rows
  let e : Fin 128 × Fin 2048 ≃ Fin 262144 := finProdFinEquiv.trans (finCongr (by norm_num))
  have he : ∀ (t : Fin 128) (r : Fin 2048), e (t, r) = row t r := by
    intro t r
    apply Fin.ext
    show r.val + 2048 * t.val = 2048 * t.val + r.val
    exact Nat.add_comm _ _
  refine (Equiv.sum_comp e _).symm.trans ?_
  rw [Fintype.sum_prod_type]
  refine Finset.sum_congr rfl fun t _ => Finset.sum_congr rfl fun r _ => ?_
  rw [he]

end Cert.SumAlgebra

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.LibKeepdims.lean ====
/-
  Sums along one axis of a matrix with the reduced axis kept as a unit axis, read at an index.

  A row sum of an `M×K` matrix kept as a column (`[M] → [M, 1]`) and broadcast over `N` columns reads, at `(p, c)`,
  the sum over `k : Fin K` of row `p`; a column sum of a `K×N` matrix kept as a row (`[N] → [1, N]`) and broadcast
  over `M` rows reads, at `(p, c)`, the sum over `k : Fin K` of column `c`. The two layout steps that the column form
  needs (a trailing unit axis added by a shape cast, a column broadcast over many columns) are stated on their own.
-/
import Idealize.ShloMosaic.PureOps.Ideal.Laws
import Idealize.ShloMosaic.Lib.ValueIdx
import Idealize.ShloMosaic.Lib.ValueLayout

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a matrix over its columns (axis 1), at row `p`: the sum of that row. -/
theorem sum_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A lane sum of a matrix over its rows (axis 0), at column `q`: the sum of that column. -/
theorem sum_axis0_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext (by
      match ax with
      | ⟨0, _⟩ => rfl
      | ⟨1, _⟩ => rfl)))

/-- The row sums of an `M×K` matrix, kept as a column and broadcast over `N` columns, at `(p, c)`. -/
theorem rowSum_keep_bcast_apply {M K N : ℕ} {φ : FTy} (src : FVec Ideal (⟨2, ![M, K]⟩ : Shape) φ) (acc : BitVec φ.bits)
    (h : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ (multiReduction .add [1] ⟨1, ![M]⟩ src acc h hφ hacc) hc) hb (ix2 p c)
      = ∑ k : Fin K, src (ix2 p k) :=
  (broadcastTo_a1_ab_apply _ hb p c).trans
    ((shapeCast_a_a1_apply _ hc p 0).trans (sum_axis1_apply src acc h hφ hacc p))

/-- The column sums of a `K×N` matrix, kept as a row and broadcast over `M` rows, at `(p, c)`. -/
theorem colSum_keep_bcast_apply {M K N : ℕ} {φ : FTy} (src : FVec Ideal (⟨2, ![K, N]⟩ : Shape) φ) (acc : BitVec φ.bits)
    (h : (⟨2, ![K, N]⟩ : Shape).Reduces [0] ⟨1, ![N]⟩) (hφ : FKind.Formats φ) (hacc : acc = FKind.add.neutral φ hφ)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ (multiReduction .add [0] ⟨1, ![N]⟩ src acc h hφ hacc) hc) hb (ix2 p c)
      = ∑ k : Fin K, src (ix2 k c) :=
  (broadcastTo_1b_ab_apply _ hb p c).trans
    ((shapeCast_a_1a_apply _ hc 0 c).trans (sum_axis0_apply src acc h hφ hacc c))

end Cert.Keepdims

end
-- ==== Proof.Payload.lean ====
/-
  The kernel body's arithmetic, read at an index on the extended reals.

  On a tile of 2048 rows x (128 coordinates each), their weights r (64 per row) and the 64 centres mu, the body forms
  the squared distances d2[p, q] = ‖x_p‖² + ‖mu_q‖² − 2·⟨x_p, mu_q⟩, weights them, sums over the centres and then over the
  rows, and places the total at position (0, 0) of an 8×128 block of zeros, which it adds to the running block.
  The three payloads of the generated skeleton are read here at an index of that block.
-/
import proofs.«125891_j1236950581441_1_alg».proof.Proof.Spec
import proofs.«125891_j1236950581441_1_alg».proof.Proof.Gen.KernelIdeal.Skeleton
import proofs.«125891_j1236950581441_1_alg».proof.Proof.LibPlainDot
import proofs.«125891_j1236950581441_1_alg».proof.Proof.LibKeepdims
import Idealize.ShloMosaic.Lib.Pipeline.Value
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- The zero block: every entry is the zero word, which is 0. -/
theorem pay2_apply (y : S8x128.Idx) : k0_pay2 (F := Ideal) y = 0 := by
  unfold k0_pay2
  rw [shapeCast_self]
  exact Ideal.ofBits_zero_f32

/-- The accumulation step: the stored block is the loaded block plus the new block, entry by entry. -/
theorem pay1_apply (v37 : FVec Ideal S8x128 .f32) (v38 : Vec Ideal S8x128 .f32) (y : S8x128.Idx) :
    k0_pay1 (F := Ideal) v37 v38 y = v38 y + v37 y := by
  unfold k0_pay1
  rw [shapeCast_self]
  rfl

/-! ## The squared distances -/

/-- The 2048×64 array of squared distances as the body forms it: the rows' squared norms kept as a column and spread
    over 64 columns, plus the centres' squared norms as a row spread over 2048 rows, minus twice the matrix of inner
    products (rows against the centres transposed, summed into zeros). -/
def dist (v3 : Vec Ideal S2048x128 .f32) (v5 : Vec Ideal S64x128 .f32) : FVec Ideal S2048x64 .f32 :=
  subf
    (addf
      (broadcastTo S2048x64
        (shapeCast S2048x1
          (multiReduction (F := Ideal) .add [1] S2048 (mulf v3 v3) 0x00000000#32 reduces_S2048x128_S2048 (.inl rfl) rfl)
          shapeCasts_S2048_S2048x1)
        broadcasts_S2048x1_S2048x64)
      (broadcastTo S2048x64
        (shapeCast S1x64
          (multiReduction (F := Ideal) .add [1] S64 (mulf v5 v5) 0x00000000#32 reduces_S64x128_S64 (.inl rfl) rfl)
          shapeCasts_S64_S1x64)
        broadcasts_S1x64_S2048x64))
    (mulf (broadcast S2048x64 (Scalar.ofBits (F := Ideal) .f32 0x40000000#32))
      (matmul dot_S2048x128_S128x64_S2048x64_1_0_0_1_n_n none (truncf .bf16 v3 bitsLt_bf16_f32)
        (transpose S128x64 [1, 0] (truncf .bf16 v5 bitsLt_bf16_f32) transposes_S64x128_p1_0_S128x64)
        (constant (F := Ideal) S2048x64 .f32 0x00000000#32)))

/-- At row p and centre q it is the expanded squared distance of row p to centre q. -/
theorem dist_apply (v3 : Vec Ideal S2048x128 .f32) (v5 : Vec Ideal S64x128 .f32) (p : Fin 2048) (q : Fin 64) :
    dist v3 v5 (ix2 p q) = Cert.Spec.dist2 (fun d => v3 (ix2 p d)) (fun d => v5 (ix2 q d)) := by
  unfold dist Cert.Spec.dist2
  rw [subf_apply, addf_apply, mulf_apply, broadcast_apply]
  refine congrArg₂ (· - ·) (congrArg₂ (· + ·) ?_ ?_) (congrArg₂ (· * ·) rfl ?_)
  · exact Cert.Keepdims.rowSum_keep_bcast_apply (mulf v3 v3) _ _ _ _ _ _ p q
  · refine (broadcastTo_1b_ab_apply _ broadcasts_S1x64_S2048x64 p q).trans ?_
    refine (shapeCast_a_1a_apply _ shapeCasts_S64_S1x64 0 q).trans ?_
    exact Cert.Keepdims.sum_axis1_apply (mulf v5 v5) _ _ _ _ q
  · refine (Cert.PlainDot.matmul_zero_apply 2048 128 64 none _ _ (ix2 p q)).trans ?_
    refine Finset.sum_congr rfl fun k _ => ?_
    exact congrArg₂ (· * ·) rfl (transpose_ix2_apply _ transposes_S64x128_p1_0_S128x64 k q)

/-! ## The weighted total of the tile -/

/-- The body's scalar: the squared distances weighted entry by entry, summed over the centres (kept as a column),
    then over the rows, and read out of the resulting 1×1 array. -/
def total (v3 : Vec Ideal S2048x128 .f32) (v4 : Vec Ideal S2048x64 .f32) (v5 : Vec Ideal S64x128 .f32) : Ideal .f32 :=
  extractAt ![0, 0]
    (shapeCast S1x1
      (multiReduction (F := Ideal) .add [0] S1
        (shapeCast S2048x1
          (multiReduction (F := Ideal) .add [1] S2048 (mulf v4 (dist v3 v5)) 0x00000000#32 reduces_S2048x64_S2048 (.inl rfl) rfl)
          shapeCasts_S2048_S2048x1)
        0x00000000#32 reduces_S2048x1_S1 (.inl rfl) rfl)
      shapeCasts_S1_S1x1)
    inpos_S1x1_p0_0

/-- It is the block sum of the specification on the tile's three arrays. -/
theorem total_eq (v3 : Vec Ideal S2048x128 .f32) (v4 : Vec Ideal S2048x64 .f32) (v5 : Vec Ideal S64x128 .f32) :
    total v3 v4 v5
      = Cert.Spec.blockSum (fun r d => v3 (ix2 r d)) (fun r k => v4 (ix2 r k)) (fun k d => v5 (ix2 k d)) := by
  unfold total Cert.Spec.blockSum extractAt
  have e00 : (fun a => (⟨(![0, 0] : Fin 2 → Nat) a, inpos_S1x1_p0_0 a⟩ : Fin (S1x1.size a)))
      = ix2 (0 : Fin 1) (0 : Fin 1) :=
    funext fun a => Fin.ext (by
      match a with
      | ⟨0, _⟩ => rfl
      | ⟨1, _⟩ => rfl)
  refine (congrArg _ e00).trans ?_
  refine (shapeCast_a_1a_apply _ shapeCasts_S1_S1x1 0 0).trans ?_
  refine (Cert.Keepdims.sum_axis0_apply _ _ reduces_S2048x1_S1 _ _ (0 : Fin 1)).trans ?_
  refine Finset.sum_congr rfl fun r _ => ?_
  refine (Cert.Keepdims.shapeCast_a_a1_apply _ shapeCasts_S2048_S2048x1 r 0).trans ?_
  refine (Cert.Keepdims.sum_axis1_apply (mulf v4 (dist v3 v5)) _ reduces_S2048x64_S2048 _ _ r).trans ?_
  refine Finset.sum_congr rfl fun k _ => ?_
  exact congrArg₂ (· * ·) rfl (dist_apply v3 v5 r k)

/-! ## The corner mask -/

/-- A 32-bit word of a number below 2^32 is the zero word only for zero. -/
theorem word_eq_zero_iff (n : ℕ) (h : n < 4294967296) : BitVec.ofNat 32 n = 0#32 ↔ n = 0 := by
  constructor
  · intro e
    have e' := congrArg BitVec.toNat e
    rw [BitVec.toNat_ofNat] at e'
    have : (0#32 : BitVec 32).toNat = 0 := rfl
    omega
  · rintro rfl
    rfl

/-- The comparison of such a word with the zero word is the bit of "the number is zero". -/
theorem cmpi_eq_zero (n : ℕ) (h : n < 4294967296) :
    IntOp.cmpi .eq (BitVec.ofNat 32 n) 0#32 = if n = 0 then 1#1 else 0#1 := by
  by_cases hn : n = 0
  · subst hn
    rfl
  · rw [if_neg hn]
    have hb : (BitVec.ofNat 32 n == 0#32) = false :=
      beq_eq_false_iff_ne.2 fun e => hn ((word_eq_zero_iff n h).1 e)
    show BitVec.ofBool (BitVec.ofNat 32 n == 0#32) = 0#1
    rw [hb]
    rfl

/-- The body's mask: both coordinate words equal to the zero word. -/
def mask : IVec S8x128 1 :=
  andi (cmpi .eq (iota .tc S8x128 32 [0] iota_S8x128_d0_w32) (broadcast S8x128 0#32))
    (cmpi .eq (iota .tc S8x128 32 [1] iota_S8x128_d1_w32) (broadcast S8x128 0#32))

/-- The mask holds exactly at position (0, 0). -/
theorem mask_apply (y : S8x128.Idx) : mask y = if (y 0).val = 0 ∧ (y 1).val = 0 then 1#1 else 0#1 := by
  have h0 : (y 0).val < 4294967296 := lt_trans (idx2_lt0 y) (by decide)
  have h1 : (y 1).val < 4294967296 := lt_trans (idx2_lt1 y) (by decide)
  show IntOp.andi (IntOp.cmpi .eq (iota .tc S8x128 32 [0] iota_S8x128_d0_w32 y) 0#32)
      (IntOp.cmpi .eq (iota .tc S8x128 32 [1] iota_S8x128_d1_w32 y) 0#32) = _
  rw [iota_single_apply, iota_single_apply, cmpi_eq_zero _ h0, cmpi_eq_zero _ h1]
  by_cases e0 : (y 0).val = 0
  · by_cases e1 : (y 1).val = 0
    · rw [if_pos e0, if_pos e1, if_pos ⟨e0, e1⟩]; rfl
    · rw [if_pos e0, if_neg e1, if_neg fun h => e1 h.2]; rfl
  · by_cases e1 : (y 1).val = 0
    · rw [if_neg e0, if_pos e1, if_neg fun h => e0 h.1]; rfl
    · rw [if_neg e0, if_neg e1, if_neg fun h => e0 h.1]; rfl

/-! ## The new block -/

/-- The block the body adds to the running block: the tile's weighted total at position (0, 0), zero elsewhere. -/
theorem pay3_apply (v3 : Vec Ideal S2048x128 .f32) (v4 : Vec Ideal S2048x64 .f32) (v5 : Vec Ideal S64x128 .f32) (y : S8x128.Idx) :
    k0_pay3 (F := Ideal) v3 v4 v5 y
      = Cert.Spec.corner (Cert.Spec.blockSum (fun r d => v3 (ix2 r d)) (fun r k => v4 (ix2 r k)) (fun k d => v5 (ix2 k d))) y := by
  have e : k0_pay3 (F := Ideal) v3 v4 v5 y
      = Scalar.select (mask y) (total v3 v4 v5) (Ideal.ofBits .f32 0x00000000#32) := rfl
  rw [e, mask_apply, total_eq, Ideal.ofBits_zero_f32]
  unfold Cert.Spec.corner
  by_cases h : (y 0).val = 0 ∧ (y 1).val = 0
  · rw [if_pos h, if_pos h]
    exact select_one _ _
  · rw [if_neg h, if_neg h]
    exact select_zero _ _

end Cert.KernelIdeal.Pay

end
-- ==== Proof.Acc.lean ====
/-
  The kernel's running total, point by point.

  Each core walks its 64 grid points in order. The scratch block it carries holds, after point n, the running total of the
  tile sums of that core's points up to n in its (0, 0) entry and zero everywhere else: the first point of a core
  stores the zero block and adds its masked tile sum, every later point adds its own. At a core's last point the
  same block is copied to the output. The statement is an induction on the grid point over the three cases the
  body's two conditions select; the arithmetic of one step is the corner-block addition.
-/
import proofs.«125891_j1236950581441_1_alg».proof.Proof.Pieces
import proofs.«125891_j1236950581441_1_alg».proof.Proof.SumAlgebra
import proofs.«125891_j1236950581441_1_alg».proof.Proof.Payload

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.Spec Cert.SumAlgebra Idealize.ShloMosaic.ValueIdx

/-- The weighted squared distances of one loaded tile, summed: the block sum of the tile's rows, weights and the centres. -/
def tile (x0 : Vec Ideal S2048x128 .f32) (x1 : Vec Ideal S2048x64 .f32) (x2 : Vec Ideal S64x128 .f32) : EReal :=
  blockSum (fun r d => x0 (ix2 r d)) (fun r k => x1 (ix2 r k)) (fun k d => x2 (ix2 k d))

/-- Onto the zero block the body adds the masked tile sum: the tile sum in the corner, zero elsewhere. -/
theorem first_step (x0 : Vec Ideal S2048x128 .f32) (x1 : Vec Ideal S2048x64 .f32) (x2 : Vec Ideal S64x128 .f32) (y : S8x128.Idx) :
    k0_pay1 (F := Ideal) (k0_pay3 (F := Ideal) x0 x1 x2) (k0_pay2 (F := Ideal)) y = corner (tile x0 x1 x2) y := by
  rw [Pay.pay1_apply, Pay.pay2_apply, Pay.pay3_apply, zero_add]
  rfl

/-- Onto a corner block carrying `a` the body adds the masked tile sum: a corner block carrying `a + tile`. -/
theorem next_step (x0 : Vec Ideal S2048x128 .f32) (x1 : Vec Ideal S2048x64 .f32) (x2 : Vec Ideal S64x128 .f32)
    (xs0 : Vec Ideal S8x128 .f32) (a : EReal) (hx : ∀ y, xs0 y = corner a y) (y : S8x128.Idx) :
    k0_pay1 (F := Ideal) (k0_pay3 (F := Ideal) x0 x1 x2) xs0 y = corner (a + tile x0 x1 x2) y := by
  rw [Pay.pay1_apply, Pay.pay3_apply, hx, corner_add]
  rfl

variable (m : (ℓ : Loc nD τ sig) → Buf (Elt Ideal) ℓ)

/-- The tile sum of grid point `n` on core `c`, of the blocks the windows show there (zero past the grid). -/
def P (c : Dev nD) (n : ℕ) : EReal :=
  if h : n < cfg0.N then tile (iblk m c 0 ⟨n, h⟩) (iblk m c 1 ⟨n, h⟩) (iblk m c 2 ⟨n, h⟩) else 0

theorem P_of_lt (c : Dev nD) (t : Fin cfg0.N) : P m c t.val = tile (iblk m c 0 t) (iblk m c 1 t) (iblk m c 2 t) :=
  dif_pos t.isLt

/-- A core's first point leaves the scratch carrying that point's tile sum. -/
theorem scratch_first (c : Dev nD) (t : Fin cfg0.N) (h0 : t.val % 64 = 0) (h1 : ¬t.val % 64 = 63) (y : S8x128.Idx) :
    (outsAt0 m c t.val t.isLt).2 y = corner (P m c t.val) y := by
  rw [outsAt0_A m c t h0 h1]
  dsimp only
  refine (congrFun (Pieces.sout_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) y).trans ?_
  refine (first_step (iblk m c 0 t) (iblk m c 1 t) (iblk m c 2 t) y).trans ?_
  rw [P_of_lt]

/-- A middle point adds its tile sum to what the scratch carried. -/
theorem scratch_mid (c : Dev nD) (t : Fin cfg0.N) (h0 : ¬t.val % 64 = 0) (h1 : ¬t.val % 64 = 63) (a : EReal)
    (hprev : ∀ y, (outsAt0 m c (t.val - 1) (Nat.lt_of_le_of_lt (Nat.sub_le _ _) t.isLt)).2 y = corner a y) (y : S8x128.Idx) :
    (outsAt0 m c t.val t.isLt).2 y = corner (a + P m c t.val) y := by
  rw [outsAt0_B m c t h0 h1]
  dsimp only
  refine (congrFun (Pieces.sout_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) y).trans ?_
  refine (next_step (iblk m c 0 t) (iblk m c 1 t) (iblk m c 2 t) _ a hprev y).trans ?_
  rw [P_of_lt]

/-- A core's last point does the same to the scratch, -/
theorem scratch_last (c : Dev nD) (t : Fin cfg0.N) (h0 : ¬t.val % 64 = 0) (h1 : t.val % 64 = 63) (a : EReal)
    (hprev : ∀ y, (outsAt0 m c (t.val - 1) (Nat.lt_of_le_of_lt (Nat.sub_le _ _) t.isLt)).2 y = corner a y) (y : S8x128.Idx) :
    (outsAt0 m c t.val t.isLt).2 y = corner (a + P m c t.val) y := by
  rw [outsAt0_C m c t h0 h1]
  dsimp only
  refine (congrFun (Pieces.sout_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) y).trans ?_
  refine (next_step (iblk m c 0 t) (iblk m c 1 t) (iblk m c 2 t) _ a hprev y).trans ?_
  rw [P_of_lt]

/-- and leaves the same block in the output's buffer. -/
theorem out_last (c : Dev nD) (t : Fin cfg0.N) (h0 : ¬t.val % 64 = 0) (h1 : t.val % 64 = 63) (a : EReal)
    (hprev : ∀ y, (outsAt0 m c (t.val - 1) (Nat.lt_of_le_of_lt (Nat.sub_le _ _) t.isLt)).2 y = corner a y) (y : S8x128.Idx) :
    (outsAt0 m c t.val t.isLt).1 y = corner (a + P m c t.val) y := by
  rw [outsAt0_C m c t h0 h1]
  dsimp only
  refine (congrFun (Pieces.out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) y).trans ?_
  refine (next_step (iblk m c 0 t) (iblk m c 1 t) (iblk m c 2 t) _ a hprev y).trans ?_
  rw [P_of_lt]

/-- After every grid point the scratch is the corner block of the core's running total: by induction on the point. -/
theorem scratch_eq (c : Dev nD) (n : ℕ) : ∀ (h : n < cfg0.N) (y : S8x128.Idx),
    (outsAt0 m c n h).2 y = corner (runSum (P m c) n) y := by
  induction n using Nat.strong_induction_on with
  | _ n ih =>
    intro h y
    by_cases h0 : n % 64 = 0
    · have h1 : ¬n % 64 = 63 := by omega
      rw [runSum_start _ _ h0]
      exact scratch_first m c ⟨n, h⟩ h0 h1 y
    · have hn : n - 1 < n := by omega
      rw [runSum_step _ _ h0]
      by_cases h1 : n % 64 = 63
      · exact scratch_last m c ⟨n, h⟩ h0 h1 _ (fun y' => ih (n - 1) hn _ y') y
      · exact scratch_mid m c ⟨n, h⟩ h0 h1 _ (fun y' => ih (n - 1) hn _ y') y

/-- At a core's last point the output's buffer holds the corner block of the core's total. -/
theorem out_eq (c : Dev nD) (t : Fin cfg0.N) (h1 : t.val % 64 = 63) (y : S8x128.Idx) :
    (outsAt0 m c t.val t.isLt).1 y = corner (runSum (P m c) t.val) y := by
  have h0 : ¬t.val % 64 = 0 := by omega
  rw [runSum_step _ _ h0]
  exact out_last m c t h0 h1 _ (fun y' => scratch_eq m c (t.val - 1) _ y') y

end Cert.KernelIdeal.Acc

end
-- ==== Proof.Final.lean ====
/-
  The kernel's result as a function of its arguments.

  Grid point t (of 128) shows the body rows 2048·t … 2048·t + 2047 of the rows and of the weights, and the whole
  array of centres; the output window's block at t is block t / 64 of the 16×128 result array, written back at the
  last point of each core (t ≡ 63 mod 64) only. So after the run the array holds core 0's total at (0, 0), core 1's
  at (8, 0) and zeros elsewhere; the host then sums the whole array from zero and divides by the row count. The two
  cores' totals together are the sum of all 128 tile sums, which is the sum over all rows: the specified loss.
-/
import proofs.«125891_j1236950581441_1_alg».proof.Proof.Acc
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Acc Cert.Spec Cert.SumAlgebra Idealize.ShloMosaic.ValueIdx

variable (m : (ℓ : Loc nD τ sig) → Buf (Elt Ideal) ℓ) (ρ : Dev nD → PrngReg)

/-- The printed index maps, decided over the grid: at point t the row windows show block t, the centres' window
    its one block, the output window block t / 64. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val / 64 ∧ win0_3.index t (1 : Fin 2) = 0 :=
  (by decide +kernel : ∀ t : Fin grid0.N, _)

/-- A grid point as a block number below 128. -/
def pt (t : Fin cfg0.N) : Fin 128 := ⟨t.val, lt_of_lt_of_eq t.isLt (show cfg0.N = 128 from N_0)⟩

/-- The three argument arrays as functions of their coordinates. -/
abbrev argX (c : Dev nD) : Fin 262144 → Fin 128 → EReal := fun n d => m ((c : Thread nD τ).loc main_arg0) (ix2 n d)
abbrev argR (c : Dev nD) : Fin 262144 → Fin 64 → EReal := fun n k => m ((c : Thread nD τ).loc main_arg1) (ix2 n k)
abbrev argM (c : Dev nD) : Fin 64 → Fin 128 → EReal := fun k d => m ((c : Thread nD τ).loc main_arg2) (ix2 k d)

/-- The rows' window at point t shows rows 2048·t … 2048·t + 2047 of the first argument, -/
theorem blk0 (c : Dev nD) (t : Fin cfg0.N) (r : Fin 2048) (d : Fin 128) :
    (iblk m c 0 t : Vec Ideal S2048x128 .f32) (ix2 r d) = argX m c (row (pt t) r) d := by
  obtain ⟨e0, e1, -⟩ := idx_facts t
  unfold iblk
  rw [View.read_apply, cast_eq]
  show V m c main_arg0 _ = m ((c : Thread nD τ).loc main_arg0) _
  rw [V_main_arg0]
  congr 1
  funext a
  apply Fin.ext
  match a with
  | ⟨0, _⟩ => show win0_0.index t (0 : Fin 2) * 2048 + 1 * r.val = 2048 * t.val + r.val; rw [e0]; omega
  | ⟨1, _⟩ => show win0_0.index t (1 : Fin 2) * 128 + 1 * d.val = d.val; rw [e1]; omega

/-- the weights' window the same rows of the second, -/
theorem blk1 (c : Dev nD) (t : Fin cfg0.N) (r : Fin 2048) (k : Fin 64) :
    (iblk m c 1 t : Vec Ideal S2048x64 .f32) (ix2 r k) = argR m c (row (pt t) r) k := by
  obtain ⟨-, -, e0, e1, -⟩ := idx_facts t
  unfold iblk
  rw [View.read_apply, cast_eq]
  show V m c main_arg1 _ = m ((c : Thread nD τ).loc main_arg1) _
  rw [V_main_arg1]
  congr 1
  funext a
  apply Fin.ext
  match a with
  | ⟨0, _⟩ => show win0_1.index t (0 : Fin 2) * 2048 + 1 * r.val = 2048 * t.val + r.val; rw [e0]; omega
  | ⟨1, _⟩ => show win0_1.index t (1 : Fin 2) * 64 + 1 * k.val = k.val; rw [e1]; omega

/-- and the centres' window the whole third argument. -/
theorem blk2 (c : Dev nD) (t : Fin cfg0.N) (k : Fin 64) (d : Fin 128) :
    (iblk m c 2 t : Vec Ideal S64x128 .f32) (ix2 k d) = argM m c k d := by
  obtain ⟨-, -, -, -, e0, e1, -⟩ := idx_facts t
  unfold iblk
  rw [View.read_apply, cast_eq]
  show V m c main_arg2 _ = m ((c : Thread nD τ).loc main_arg2) _
  rw [V_main_arg2]
  congr 1
  funext a
  apply Fin.ext
  match a with
  | ⟨0, _⟩ => show win0_2.index t (0 : Fin 2) * 64 + 1 * k.val = k.val; rw [e0]; omega
  | ⟨1, _⟩ => show win0_2.index t (1 : Fin 2) * 128 + 1 * d.val = d.val; rw [e1]; omega

/-- So the tile sum of grid point t is the block sum of the arguments' rows 2048·t … 2048·t + 2047. -/
theorem P_eq (c : Dev nD) (t : Fin cfg0.N) :
    P m c t.val = blockSum (fun r => argX m c (row (pt t) r)) (fun r => argR m c (row (pt t) r)) (argM m c) := by
  rw [P_of_lt]
  unfold tile
  congr 1
  · funext r d; exact blk0 m c t r d
  · funext r k; exact blk1 m c t r k
  · funext k d; exact blk2 m c t k d

/-- The per-core totals: core k's running total after its last point. -/
abbrev coreTotal (c : Dev nD) : ℕ → EReal := fun k => runSum (P m c) (k * 64 + 63)

/-- What a core's last point writes back is its block of the array of per-core totals. -/
theorem flushed_eq (c : Dev nD) (t : Fin cfg0.N) (hf : (cfg0.win 3).flush t = true) :
    (dats m 0 c).flushed 3 t = ((cfg0.win 3).blk t).view.read (Elt Ideal) (slab (coreTotal m c)) := by
  have h1 : t.val % 64 = 63 := (flush0_3 t).mp hf
  obtain ⟨-, -, -, -, -, -, e0, e1⟩ := idx_facts t
  funext y
  show (dats m 0 c).after 3 t ((cfg0.win 3).xinj (grid0.coords t) y) = _
  rw [after0_3, View.read_apply, cast_eq, out_eq m c t h1]
  have hA : runSum (P m c) t.val = coreTotal m c (t.val / 64) := by
    show _ = runSum (P m c) (t.val / 64 * 64 + 63)
    congr 1; omega
  rw [hA]
  refine (slab_block (coreTotal m c) (t.val / 64) _ _ ?_ ?_).symm
  · show win0_3.index t (0 : Fin 2) * 8 + 1 * (y 0).val = t.val / 64 * 8 + 1 * (y 0).val; rw [e0]
  · show win0_3.index t (1 : Fin 2) * 128 + 1 * (y 1).val = 0 * 128 + 1 * (y 1).val; rw [e1]

/-- An index of the 16×128 array is in point t's block iff each coordinate is in the block's range on its axis. -/
theorem mem_blk (t : Fin cfg0.N) (i : S16x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v0).slice (win0_3.rect t)).set ↔ _
  rw [View.set_slice_whole, Rect.mem_set_unit]
  exact Iff.rfl

/-- Every index of the array lies in the block some core's last point writes back: rows 8k … 8k + 7 in core k's. -/
theorem cover (i : S16x128.Idx) : ∃ t : Fin cfg0.N, (cfg0.win 3).flush t = true ∧ i ∈ ((cfg0.win 3).blk t).view.set := by
  have hi0 : (i 0).val < 16 := idx2_lt0 i
  have hi1 : (i 1).val < 128 := idx2_lt1 i
  have hN : cfg0.N = 128 := N_0
  let t : Fin cfg0.N := ⟨(i 0).val / 8 * 64 + 63, by rw [hN]; omega⟩
  have htv : t.val = (i 0).val / 8 * 64 + 63 := rfl
  obtain ⟨-, -, -, -, -, -, e0, e1⟩ := idx_facts t
  refine ⟨t, (flush0_3 t).mpr (by rw [htv]; omega), ?_⟩
  rw [mem_blk]
  intro a
  match a with
  | ⟨0, _⟩ => show win0_3.index t (0 : Fin 2) * 8 ≤ (i 0).val ∧ (i 0).val < win0_3.index t (0 : Fin 2) * 8 + 8; rw [e0, htv]; omega
  | ⟨1, _⟩ => show win0_3.index t (1 : Fin 2) * 128 ≤ (i 1).val ∧ (i 1).val < win0_3.index t (1 : Fin 2) * 128 + 128; rw [e1]; omega

/-- So the output array ends holding the per-core totals at (0, 0) and (8, 0), zero elsewhere. -/
theorem final_out (c : Dev nD) : (dats m 0 c).arrAt 3 cfg0.N = slab (coreTotal m c) :=
  (dats m 0 c).arrAt_eq_of_cover 3 (slab (coreTotal m c)) (flushed_eq m c) cover

/-- The buffer the program returns is read after the region: it is no window's array and is not scoped. -/
theorem v2_rest : main_v2 ∈ Pipeline.restRefs sig (cfgs 0).spec :=
  Pipeline.mem_restRefs_of main_v2 rfl (by decide)

/-- The host lines after the region: the whole-array sum of the result array from zero, divided by the row count. -/
theorem tail_eq (c : Dev nD) :
    Pipeline.afterTail₀ cfgs (dats m) 0 (V0 m) [hostOps1] c main_v2
      = Host.divf (Host.reduceAdd (slab (coreTotal m c)) (constant (F := Ideal) S_ .f32 0x00000000#32) reducesTo_S16x128_S_d0_1 h_S_)
          (constant (F := Ideal) S_ .f32 0x48800000#32) := by
  unfold Pipeline.afterTail₀
  show StableHlo.after hostOps1 _ (Proc.devRef .tc main_v2) = _
  after_results
  rw [(Pipeline.withArrays_arr spec0 launch0.win.arr_inj c (V0 m c) (fun w => (dats m 0 c).arrAt w (cfgs 0).N) 3).trans (final_out m c)]

/-- The host's sum of the result array, from zero, is the sum over all rows: the array holds the two cores' totals,
    those are the 128 tile sums added up, and the tiles are the 128 blocks of 2048 consecutive rows. -/
theorem sum_eq (c : Dev nD) (i : S_.Idx) :
    Host.reduceAdd (F := Ideal) (slab (coreTotal m c)) (constant (F := Ideal) S_ .f32 0x00000000#32) reducesTo_S16x128_S_d0_1 h_S_ i
      = blockSum (argX m c) (argR m c) (argM m c) := by
  simp only [Host.reduceAdd, Ideal.hostReduceAdd_def]
  rw [Ideal.hostReduceAdd_total reducesTo_S16x128_S_d0_1 (fun b => b.elim0)]
  show Ideal.ofBits .f32 0x00000000#32 + _ = _
  rw [Ideal.ofBits_zero_f32, zero_add, sum_slab]
  show runSum (P m c) 63 + runSum (P m c) 127 = _
  rw [runSum_total, blockSum_split]
  refine Finset.sum_congr rfl fun t _ => ?_
  exact P_eq m c ⟨t.val, by rw [show cfg0.N = 128 from N_0]; exact t.isLt⟩

/-- The value the kernel program returns: the specified loss of its three arguments. -/
theorem kernel_value (c : Dev nD) :
    Pipeline.afterTail₀ cfgs (dats m) 0 (V0 m) [hostOps1] c main_v2 = fun _ => loss (argX m c) (argR m c) (argM m c) := by
  rw [tail_eq]
  funext i
  show Ideal.div (Host.reduceAdd (F := Ideal) (slab (coreTotal m c)) (constant (F := Ideal) S_ .f32 0x00000000#32) reducesTo_S16x128_S_d0_1 h_S_ i)
    (Ideal.ofBits .f32 0x48800000#32) = _
  rw [sum_eq]
  rfl

/-- The run, read: every weakly fair execution ends with the returned buffer at the specified loss of the arguments
    and the three arguments unchanged. -/
theorem run : θ_run defs (onTc (τ := τ) (main (F := Ideal))) ⟨m, fun _ => 0, ρ⟩ fun r => ∀ c : Dev nD,
      r.2.mem ((c : Thread nD τ).loc main_v2) = (fun _ => loss (argX m c) (argR m c) (argM m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).2 main_v2 v2_rest).trans (kernel_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Final
end
-- ==== Proof.RefValue.lean ====
/-
  The reference program's result is the specified loss.

  The reference computes, for rows x_n (n < 262144, 128 coordinates), centres μ_k (k < 64) and weights r[n,k],
      ‖x_n‖² (a sum over the coordinates, kept as a column), ‖μ_k‖² (likewise, as a row), ⟨x_n, μ_k⟩ (one contraction),
      d2[n,k] = ‖x_n‖² + ‖μ_k‖² − 2·⟨x_n, μ_k⟩,   and   ( ∑_{n,k} r[n,k] · d2[n,k] ) / 262144.
  Read one operation at a time at an index, each sum starts from the zero word, each broadcast reads its operand at the
  coordinate it keeps, and the total over all index pairs is the double sum over rows and centres. What is left is the
  specification's expression term by term; the two float literals stay the binary32 words both sides spell.
-/
import proofs.«125891_j1236950581441_1_alg».proof.Proof.Spec
import proofs.«125891_j1236950581441_1_alg».proof.Proof.Gen.ReferenceIdeal.Read

noncomputable section

open scoped BigOperators

namespace Cert.RefValue

open Idealize.ShloMosaic Idealize.ShloMosaic.ValueIdx Cert.ReferenceIdeal Cert.ReferenceIdeal.Gen Cert.ReferenceIdeal.Read

/-- The left operand's index of the contraction, at row `n`, centre `k`, coordinate `d`: row `n`, coordinate `d`. -/
theorem lidx_eq (n : Fin 262144) (k : Fin 64) (d : Fin 128) :
    lidx_main_v5 (ix2 n k) d = ix2 n d :=
  funext fun a => Fin.ext (by match a with | ⟨0, _⟩ => rfl | ⟨1, _⟩ => rfl)

/-- The right operand's index of the contraction: centre `k`, coordinate `d`. -/
theorem ridx_eq (n : Fin 262144) (k : Fin 64) (d : Fin 128) :
    ridx_main_v5 (ix2 n k) d = ix2 k d :=
  funext fun a => Fin.ext (by match a with | ⟨0, _⟩ => rfl | ⟨1, _⟩ => rfl)

/-- The squared norm of the rows, broadcast along the centres, is read at row `n`, coordinate `d`. -/
theorem idx1_eq (n : Fin 262144) (k : Fin 64) (d : Fin 128) :
    idx_main_v1 (idx_main_v2 (idx_main_v7 (ix2 n k))) d = ix2 n d :=
  funext fun a => Fin.ext (by match a with | ⟨0, _⟩ => rfl | ⟨1, _⟩ => rfl)

/-- The squared norm of the centres, broadcast along the rows, is read at centre `k`, coordinate `d`. -/
theorem idx4_eq (n : Fin 262144) (k : Fin 64) (d : Fin 128) :
    idx_main_v4 (idx_main_v6 (idx_main_v8 (ix2 n k))) d = ix2 k d :=
  funext fun a => Fin.ext (by match a with | ⟨0, _⟩ => rfl | ⟨1, _⟩ => rfl)

/-- One summand of the reference's total: at row `n` and centre `k` the weighted array holds
    r[n,k] · ( ‖x_n‖² + ‖μ_k‖² − 2·⟨x_n, μ_k⟩ ), the squared distance in its expanded form. -/
theorem term (x0 : (⟨S262144x128, .f32⟩ : BufTy).Contents (Elt Ideal)) (x1 : (⟨S262144x64, .f32⟩ : BufTy).Contents (Elt Ideal))
    (x2 : (⟨S64x128, .f32⟩ : BufTy).Contents (Elt Ideal)) (n : Fin 262144) (k : Fin 64) :
    val_main_v13 (F := Ideal) x0 x1 x2 (ix2 n k)
      = x1 (ix2 n k) * Cert.Spec.dist2 (fun d => x0 (ix2 n d)) (fun d => x2 (ix2 k d)) := by
  rw [val_main_v13_apply, val_main_v12_apply, val_main_v9_apply, val_main_v7_apply, val_main_v2_apply, val_main_v1_apply,
    val_main_cst_apply, val_main_v8_apply, val_main_v6_apply, val_main_v4_apply, val_main_cst_0_apply,
    val_main_v11_apply, val_main_v10_apply, val_main_cst_1_apply, val_main_v5_apply]
  simp only [val_main_v0_apply, val_main_v3_apply, idx1_eq, idx4_eq, lidx_eq, ridx_eq, Ideal.mulf_def, Ideal.addf_def, Ideal.subf_def,
    Ideal.ofBits_def, Ideal.ofBits_zero_f32, zero_add]
  rfl

/-- The reference program's result is the specified loss: the total over all (row, centre) pairs, started from zero, is the
    double sum over rows and centres of the summands above, and the final division is by the same binary32 word. -/
theorem ref_loss (x0 : (⟨S262144x128, .f32⟩ : BufTy).Contents (Elt Ideal)) (x1 : (⟨S262144x64, .f32⟩ : BufTy).Contents (Elt Ideal))
    (x2 : (⟨S64x128, .f32⟩ : BufTy).Contents (Elt Ideal)) (i : S_.Idx) :
    val_main_v15 (F := Ideal) x0 x1 x2 i
      = Cert.Spec.loss (fun n d => x0 (ix2 n d)) (fun n k => x1 (ix2 n k)) (fun k d => x2 (ix2 k d)) := by
  rw [val_main_v15_apply, Ideal.hostDivf_def, val_main_v14_apply, val_main_cst_2_apply, val_main_cst_3_apply,
    Ideal.ofBits_def, Ideal.ofBits_def, Ideal.ofBits_zero_f32, zero_add, ValueIdx.sum_idx2]
  unfold Cert.Spec.loss Cert.Spec.blockSum
  refine congrArg (fun s => Ideal.div s Cert.Spec.rows) ?_
  refine Finset.sum_congr rfl fun n _ => Finset.sum_congr rfl fun k _ => ?_
  exact term x0 x1 x2 n k

end Cert.RefValue

end
-- ==== Proof.lean ====
/-
  The proof of `Cert.Claim`: the kernel and its idealization run and leave their arguments unchanged, the idealization
  rewrote nothing, and at the ideal instance the kernel and the reference return the same extended real.

  Both programs compute the isotropic mixture loss
      ( ∑_n ∑_k r[n,k] · ( ‖x_n‖² + ‖μ_k‖² − 2·⟨x_n, μ_k⟩ ) ) / 262144
  over 262144 rows, 64 centres and 128 coordinates (Proof/Spec.lean). The reference forms the three sums over the whole
  arrays and one total (Proof/RefValue.lean). The kernel walks the rows in 128 tiles of 2048 on two cores of 64 grid
  points each: per tile it forms the same expression on the tile (Proof/Payload.lean; its change of float format is
  the identity on the extended reals, its matrix product into zeros the plain sum of products), adds the tile's total
  into the corner of a block it carries from point to point (Proof/Pieces.lean, Proof/Acc.lean), writes each core's
  block out at the core's last point, and the host sums the resulting array and divides (Proof/Final.lean). The two
  values differ only in how one finite sum is grouped (Proof/SumAlgebra.lean): commutativity and associativity of +
  on the extended reals, which hold at the infinities too, so the finiteness of the inputs is never used.
-/
import proofs.«125891_j1236950581441_1_alg».proof.Defs
import proofs.«125891_j1236950581441_1_alg».proof.Proof.Gen.Kernel
import proofs.«125891_j1236950581441_1_alg».proof.Proof.Gen.Kernel.Skeleton
import proofs.«125891_j1236950581441_1_alg».proof.Proof.Gen.Kernel.Launch
import proofs.«125891_j1236950581441_1_alg».proof.Proof.Gen.Kernel.Points
import proofs.«125891_j1236950581441_1_alg».proof.Proof.Gen.Kernel.Frame
import proofs.«125891_j1236950581441_1_alg».proof.Proof.Gen.KernelIdeal
import proofs.«125891_j1236950581441_1_alg».proof.Proof.Gen.KernelIdeal.Skeleton
import proofs.«125891_j1236950581441_1_alg».proof.Proof.Gen.KernelIdeal.Launch
import proofs.«125891_j1236950581441_1_alg».proof.Proof.Gen.KernelIdeal.Points
import proofs.«125891_j1236950581441_1_alg».proof.Proof.Gen.KernelIdeal.Frame
import proofs.«125891_j1236950581441_1_alg».proof.Proof.Gen.ReferenceIdeal
import proofs.«125891_j1236950581441_1_alg».proof.Proof.Gen.ReferenceIdeal.Run
import proofs.«125891_j1236950581441_1_alg».proof.Proof.Gen.ReferenceIdeal.Read
import proofs.«125891_j1236950581441_1_alg».proof.Proof.Gen.Pre_finite_inputs
import proofs.«125891_j1236950581441_1_alg».proof.Proof.Final
import proofs.«125891_j1236950581441_1_alg».proof.Proof.RefValue
import Idealize.ShloMosaic.Adequacy
import Idealize.ShloMosaic.Init

noncomputable section

namespace Cert.Proof

open Idealize.ShloMosaic Idealize.SL.Sem Cert.Kernel

/-- The kernel as printed runs, faults nowhere and leaves its three arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end at the specified loss of those arguments. -/
theorem algebraic : Cert.algebraic_KernelIdeal_ReferenceIdeal := by
  intro m ρ m' ρ' _ hagree
  refine ⟨fun c _ => Cert.Spec.loss (Cert.KernelIdeal.Final.argX m c) (Cert.KernelIdeal.Final.argR m c) (Cert.KernelIdeal.Final.argM m c),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq]
  funext i
  rw [Cert.RefValue.ref_loss, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
